-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608 : Shape := ⟨1, ![8388608]⟩
abbrev S_ : Shape := ⟨0, ![]⟩

class Facts : Prop where
  bcast_S_S8388608 : S_.BroadcastsInDim S8388608 (![] : Fin 0 → Fin S8388608.rank)
  reducesTo_S8388608_S_d0 : S8388608.ReducesTo [0] S_
  h_S_ : 0 < S_.numel

variable [Facts]

def fn {F : FTy → Type} [FloatOps F] (main_arg0 : FVec F S8388608 .f32) (main_arg1 : FVec F S8388608 .f32) (main_arg2 : FVec F S8388608 .f32) : IVec S_ 1 :=
  let main_v0 : FVec F S8388608 .f32 := Host.absf main_arg0
  let main_cst : FVec F S_ .f32 := constant S_ .f32 0x7F800000#32
  let main_v1 : FVec F S8388608 .f32 := broadcastInDim S8388608 ![] bcast_S_S8388608 main_cst
  let main_v2 : IVec S8388608 1 := cmpf .olt main_v0 main_v1
  let main_c : IVec S_ 1 := constantI S_ 1 1#1
  let main_v3 : IVec S_ 1 := (fun x v => Host.reduce IntOp.andi x v reducesTo_S8388608_S_d0 h_S_) main_v2 main_c
  let main_v4 : FVec F S8388608 .f32 := Host.absf main_arg1
  let main_cst_0 : FVec F S_ .f32 := constant S_ .f32 0x7F800000#32
  let main_v5 : FVec F S8388608 .f32 := broadcastInDim S8388608 ![] bcast_S_S8388608 main_cst_0
  let main_v6 : IVec S8388608 1 := cmpf .olt main_v4 main_v5
  let main_c_1 : IVec S_ 1 := constantI S_ 1 1#1
  let main_v7 : IVec S_ 1 := (fun x v => Host.reduce IntOp.andi x v reducesTo_S8388608_S_d0 h_S_) main_v6 main_c_1
  let main_v8 : IVec S_ 1 := andi main_v3 main_v7
  let main_v9 : FVec F S8388608 .f32 := Host.absf main_arg2
  let main_cst_2 : FVec F S_ .f32 := constant S_ .f32 0x7F800000#32
  let main_v10 : FVec F S8388608 .f32 := broadcastInDim S8388608 ![] bcast_S_S8388608 main_cst_2
  let main_v11 : IVec S8388608 1 := cmpf .olt main_v9 main_v10
  let main_c_3 : IVec S_ 1 := constantI S_ 1 1#1
  let main_v12 : IVec S_ 1 := (fun x v => Host.reduce IntOp.andi x v reducesTo_S8388608_S_d0 h_S_) main_v11 main_c_3
  let main_v13 : IVec S_ 1 := andi main_v8 main_v12
  main_v13
-- ==== Kernel.lean ====
abbrev S8388608 : Shape := ⟨1, ![8388608]⟩
abbrev S65536x128 : Shape := ⟨2, ![65536, 128]⟩
abbrev S16x128 : Shape := ⟨2, ![16, 128]⟩
abbrev S8192x128 : Shape := ⟨2, ![8192, 128]⟩
abbrev S8x128 : Shape := ⟨2, ![8, 128]⟩
abbrev S128 : Shape := ⟨1, ![128]⟩
abbrev S1x128 : Shape := ⟨2, ![1, 128]⟩
abbrev S_ : Shape := ⟨0, ![]⟩

abbrev nBuf : Space → Nat
  | .hbm => 11
  | .vmem => 7
  | .smem => 0
  | _ => 0

abbrev bufTy : (tb : Table) → Fin (tcTables nBuf tb) → BufTy
  | .hbm, ⟨0, _⟩ => ⟨S8388608, .f32⟩
  | .hbm, ⟨1, _⟩ => ⟨S8388608, .f32⟩
  | .hbm, ⟨2, _⟩ => ⟨S8388608, .f32⟩
  | .hbm, ⟨3, _⟩ => ⟨S65536x128, .f32⟩
  | .hbm, ⟨4, _⟩ => ⟨S65536x128, .f32⟩
  | .hbm, ⟨5, _⟩ => ⟨S16x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S8388608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8388608_S65536x128 : S8388608.ShapeCasts S65536x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S128 : S8192x128.Reduces [0] S128
  shapeCasts_S128_S1x128 : S128.ShapeCasts S1x128
  inb_S8x128_S1x128_0_0 : ∀ a, (![0, 0] : Fin 2 → Nat) a + S1x128.size a ≤ S8x128.size a
  h_S1x128 : 0 < S1x128.numel
  shapeCasts_S1x128_S1x128 : S1x128.ShapeCasts S1x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S65536x128.size a
  hwx0_0 : ∀ i : grid0.Coords, EltTy.bits .f32 = 32 ∨ (Rect.block (s := S65536x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S65536x128.size a
  hwx0_1 : ∀ i : grid0.Coords, EltTy.bits .f32 = 32 ∨ (Rect.block (s := S65536x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8388608 : Shape := ⟨1, ![8388608]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8388608, .f32⟩
  | .hbm, ⟨1, _⟩ => ⟨S8388608, .f32⟩
  | .hbm, ⟨2, _⟩ => ⟨S8388608, .f32⟩
  | .hbm, ⟨3, _⟩ => ⟨S8388608, .i1⟩
  | .hbm, ⟨4, _⟩ => ⟨S_, .f32⟩
  | .hbm, ⟨5, _⟩ => ⟨S_, .f32⟩
  | .hbm, ⟨6, _⟩ => ⟨S8388608, .f32⟩
  | .hbm, ⟨7, _⟩ => ⟨S8388608, .f32⟩
  | .hbm, ⟨8, _⟩ => ⟨S8388608, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  reducesTo_S8388608_S_d0 : S8388608.ReducesTo [0] S_
  h_S_ : 0 < S_.numel

variable [Facts₀]

class Facts : Prop extends Facts₀ where

variable [Facts]
-- ==== Proof.Indicator.lean ====
/-
  The vocabulary both programs are read in.

  Both programs compare two arrays of 8388608 extended reals position by position, put 1 where the second array's
  entry exceeds the first's and 0 elsewhere, add these indicators up, divide the total by 8388608 and negate. They
  differ only in how the total is taken. Here: the indicator at a flat position, a sum over a one-axis index set as
  a sum over its one coordinate, and the common ending (divide by 8388608, negate) as one function of a scalar,
  which no proof needs to open.
-/
import Idealize.ShloMosaic.PureOps.Ideal.Laws
import Idealize.ShloMosaic.Lib.ValueIdx

noncomputable section

namespace Cert.Indicator

open Idealize.ShloMosaic Idealize.ShloMosaic.ValueIdx

/-- The flat arrays' index set and the scalars'. -/
abbrev Flat : Shape := ⟨1, ![8388608]⟩
abbrev Scal : Shape := ⟨0, ![]⟩

/-- 1 where `b` exceeds `a`, 0 where it does not (the two literals are the words of 1.0 and 0.0). -/
def pick (a b : EReal) : EReal :=
  Scalar.select (FloatOps.cmpf (F := Ideal) (φ := .f32) .ogt b a) (Ideal.ofBits .f32 0x3F800000#32) (Ideal.ofBits .f32 0x00000000#32)

/-- The indicator at flat position `n`: does the second array exceed the first there? -/
def ind (x1 x2 : Flat.Idx → EReal) (n : Fin 8388608) : EReal := pick (x1 (ix1 n)) (x2 (ix1 n))

/-- A one-axis index set is its one coordinate's range … -/
def idxEquiv1 {n : Nat} : (⟨1, ![n]⟩ : Shape).Idx ≃ Fin n where
  toFun j := j 0
  invFun a := ix1 a
  left_inv j := (eq_ix1 j).symm
  right_inv _ := rfl

/-- … so a sum over it is the sum over that coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- The common ending: the scalar divided by 8388608 (the word 0x4B000000), negated. -/
def finish (s : Scal.Idx → EReal) : Scal.Idx → EReal :=
  Host.negf (F := Ideal) (φ := .f32) (Host.divf (F := Ideal) (φ := .f32) s (constant (F := Ideal) Scal .f32 0x4B000000#32))

end Cert.Indicator

end
-- ==== Proof.MeanOfIndicator.lean ====
/-
  The reference's result as a function of its argument arrays.

  The reference computes, over the 8388608 positions, the indicator of "the third array exceeds the second"
  (1 where it does, 0 where it does not), sums the indicators starting from zero, divides the sum by 8388608
  and negates the quotient. Read one operation at a time, its last stage is the common ending applied to
  0 + Σₙ ind n.
-/
import proofs.«142115_j44487271252810_2_alg».proof.Defs
import proofs.«142115_j44487271252810_2_alg».proof.Proof.Gen.ReferenceIdeal.Run
import proofs.«142115_j44487271252810_2_alg».proof.Proof.Gen.ReferenceIdeal.Read
import proofs.«142115_j44487271252810_2_alg».proof.Proof.Indicator

noncomputable section

namespace Cert.MeanOfIndicator

open Idealize.ShloMosaic Idealize.ShloMosaic.ValueIdx Idealize.SL.Sem
open Cert.ReferenceIdeal Cert.ReferenceIdeal.Read

/-- The host's sum of the selected literals, started from the zero word, is 0 + Σₙ ind n. -/
theorem total_eq (x1 x2 : S8388608.Idx → EReal) :
    val_main_v2 (F := Ideal) x1 x2
      = fun _ => Ideal.ofBits .f32 0x00000000#32 + ∑ n : Fin 8388608, Cert.Indicator.ind x1 x2 n := by
  funext i
  rw [val_main_v2_apply, Cert.Indicator.sum_idx1, val_main_cst_1_apply]
  refine congrArg _ (Finset.sum_congr rfl fun n _ => ?_)
  rw [val_main_v1_apply, val_main_v0_apply, val_main_call0_v0_apply, val_main_call0_v1_apply,
    val_main_cst_apply, val_main_cst_0_apply]
  rfl

/-- The reference's result: the common ending of that total. -/
theorem result_eq (x1 x2 : S8388608.Idx → EReal) :
    val_main_v4 (F := Ideal) x1 x2
      = Cert.Indicator.finish (fun _ => Ideal.ofBits .f32 0x00000000#32 + ∑ n : Fin 8388608, Cert.Indicator.ind x1 x2 n) := by
  unfold val_main_v4 val_main_v3
  rw [total_eq]
  rfl

end Cert.MeanOfIndicator

end
-- ==== Proof.LanePartial.lean ====
/-
  What one grid point adds to a lane of the accumulator.

  At a grid point the body holds a block of 8192 rows by 128 lanes of each of the two compared arrays. It forms the
  indicator block (1 where the second block exceeds the first, 0 elsewhere), sums it down the 8192 rows, which at
  the ideal values is the plain sum over the rows, lane by lane, and adds that row of 128 lane sums to row 0 of the
  accumulator it has just read. So the stored row is, at lane l, the accumulator's old entry plus the number of rows
  s of the block at which the second array exceeds the first in lane l.
-/
import proofs.«142115_j44487271252810_2_alg».proof.Proof.Gen.KernelIdeal.Skeleton
import proofs.«142115_j44487271252810_2_alg».proof.Proof.Indicator
import Idealize.ShloMosaic.Lib.ValueLayout
import Idealize.ShloMosaic.Lib.Pipeline.Value
import Idealize.ShloMosaic.PureOps.Ideal.Laws

noncomputable section

namespace Cert.LanePartial

open Idealize.ShloMosaic Idealize.ShloMosaic.ValueIdx
open Cert.KernelIdeal Cert.KernelIdeal.Gen

/-- The lane sum of a block's indicators: over the block's 8192 rows, at lane `l`, how often the second block
    exceeds the first. -/
def laneCount (xs xa : S8192x128.Idx → EReal) (l : Fin 128) : EReal :=
  ∑ s : Fin 8192, Cert.Indicator.pick (xs (ix2 s l)) (xa (ix2 s l))

/-- The row the body stores into row 0 of the accumulator: at lane `l`, the old entry plus the block's lane count.
    (`v3` is the second array's block, `v5` the first's, `v13` the accumulator's row 0 as read.) -/
theorem storedRow_apply (v3 v5 : Vec Ideal S8192x128 .f32) (v13 : Vec Ideal S1x128 .f32) (u : Fin 1) (l : Fin 128) :
    k0_pay2 (F := Ideal) v3 v5 v13 (ix2 u l) = v13 (ix2 u l) + laneCount v5 v3 l := by
  unfold k0_pay2
  simp only [shapeCast_self]
  show v13 (ix2 u l) + shapeCast S1x128 _ shapeCasts_S128_S1x128 (ix2 u l) = _
  refine congrArg _ ?_
  refine (shapeCast_a_1a_apply _ shapeCasts_S128_S1x128 u l).trans ?_
  refine (Ideal.multiReduction_add_single _ _ reduces_S8192x128_S128 (.inl rfl) rfl (ix1 l)).trans ?_
  refine Finset.sum_congr rfl fun s _ => ?_
  have e : reduces_S8192x128_S128.lift (ix1 l) s = ix2 s l :=
    funext fun a => match a with
      | ⟨0, _⟩ => Fin.ext rfl
      | ⟨1, _⟩ => Fin.ext rfl
  rw [e]
  rfl

end Cert.LanePartial

end
-- ==== Proof.AccumulatorStep.lean ====
/-
  What one grid point does to the accumulator.

  The accumulator is a block of 8 rows by 128 lanes. At every grid point the body reads its row 0, adds to it the
  lane counts of the point's two blocks (how often, down the block's 8192 rows, the second array exceeds the first,
  lane by lane), and stores the sum back into row 0; rows 1 to 7 are not touched. At a core's first point the whole
  accumulator is set to the zero word first, so that there the old contents are the zero block. At a core's last
  point the whole accumulator, as it stands after the update, is also copied into the output block.
-/
import proofs.«142115_j44487271252810_2_alg».proof.Proof.Gen.KernelIdeal.Frame
import proofs.«142115_j44487271252810_2_alg».proof.Proof.LanePartial
import Idealize.ShloMosaic.Lib.WritesUnit
import Idealize.ShloMosaic.Lib.WholeRead
import Idealize.ShloMosaic.Lib.Tactic

noncomputable section

namespace Cert.AccumulatorStep

open Idealize.ShloMosaic Idealize.ShloMosaic.TcCoe Idealize.ShloMosaic.ValueIdx Idealize.SL.Sem Idealize.ShloMosaic.Tactic
open Cert.KernelIdeal Cert.KernelIdeal.Gen Cert.LanePartial

theorem hz : (![0, 0] : Fin 2 → Nat) = fun _ => 0 := funext fun a => by fin_cases a <;> rfl

/-- Reading an 8 by 128 buffer after a newest store into its row 0: row 0 reads the stored row, every other row
    reads what the earlier stores left. -/
theorem read_after_row0_store {Val : EltTy → Type} {sig : RefSig} {κ : Kind} {sp : Space}
    (v : View sig κ sp S8x128 .f32) (f : v.ty.Contents Val)
    (inb : ∀ a : Fin 2, (![0, 0] : Fin 2 → ℕ) a + (![1, 128] : Fin 2 → ℕ) a ≤ (![8, 128] : Fin 2 → ℕ) a)
    (w : (Rect.unit (s := S8x128) ![0, 0] ![1, 128] inb).shape.Idx → Val .f32) (L : List (View.Piece Val S8x128 .f32))
    (r : Fin 8) (l : Fin 128) :
    v.read Val (v.writes Val f ((⟨Rect.unit (s := S8x128) ![0, 0] ![1, 128] inb, w⟩ : View.Piece Val S8x128 .f32) :: L)) (ix2 r l)
      = if r.val = 0 then w (ix2 (0 : Fin 1) l) else v.read Val (v.writes Val f L) (ix2 r l) := by
  by_cases h : r.val = 0
  · rw [if_pos h]
    exact View.read_writes_cons_rows_of_mem (o := 0) v f inb w L (ix2 r l) (ix2 (0 : Fin 1) l) rfl
      (by show r.val = 0 + 0; omega) rfl
  · rw [if_neg h]
    exact View.read_writes_cons_rows_of_not_mem (o := 0) (W := 1) v f inb w L (ix2 r l) rfl rfl
      (by show r.val < 0 ∨ 0 + 1 ≤ r.val; omega)

/-- The zero block. -/
def zeroBlock : Vec Ideal S8x128 .f32 := fun _ => Ideal.ofBits .f32 0x00000000#32

/-- One point's update of the accumulator `old`, from the first array's block `xs` and the second's `xa`:
    row 0 gains the block's lane counts, rows 1 to 7 stay. -/
def step (xs xa : Vec Ideal S8192x128 .f32) (old : Vec Ideal S8x128 .f32) : Vec Ideal S8x128 .f32 :=
  fun y => if (y 0).val = 0 then old y + laneCount xs xa (y 1) else old y

/-- A load of a whole 8192 by 128 staging buffer reads its contents. -/
theorem load_whole (a : Memref sig .tc .vmem S8192x128 .f32) (h : a.IsWhole) (X : Vec Ideal S8192x128 .f32)
    (inb : ∀ a : Fin 2, (![0, 0] : Fin 2 → ℕ) a + S8192x128.size a ≤ S8192x128.size a) :
    View.readAt (Elt Ideal) a.view (Rect.unit (s := S8192x128) ![0, 0] S8192x128.size inb).toLoadRect (h.unread X) = X := by
  simp only [View.readAt_eq_ld, h.read_unread, View.ld_unit_zero (S := S8192x128) hz]

/-- A load of row 0 of the whole 8 by 128 accumulator reads row 0 of its contents. -/
theorem load_row0 (a : Memref sig .tc .vmem S8x128 .f32) (h : a.IsWhole) (X : Vec Ideal S8x128 .f32)
    (inb : ∀ a : Fin 2, (![0, 0] : Fin 2 → ℕ) a + (![1, 128] : Fin 2 → ℕ) a ≤ (![8, 128] : Fin 2 → ℕ) a)
    (r : Fin 8) (hr : r.val = 0) (l : Fin 128) :
    View.readAt (Elt Ideal) a.view (Rect.unit (s := S8x128) ![0, 0] ![1, 128] inb).toLoadRect (h.unread X) (ix2 (0 : Fin 1) l)
      = X (ix2 r l) :=
  (h.readAt_unread X _ _).trans (congrArg X (funext fun d => Fin.ext (by
    match d with
    | ⟨0, _⟩ => show 0 + 1 * 0 = r.val; omega
    | ⟨1, _⟩ => show 0 + 1 * l.val = l.val; omega)))

/-- The zero block the reset stores is the zero word everywhere. -/
theorem resetBlock_eq : k0_pay1 (F := Ideal) = zeroBlock := by
  unfold k0_pay1
  simp only [shapeCast_self]
  rfl

/-- THE UPDATE: the accumulator, holding `xs0`, after the body's store into row 0 of the old row 0 plus the
    point's lane counts. -/
theorem rowUpdate_eq (a2 : Memref sig .tc .vmem S8192x128 .f32) (h2 : a2.IsWhole)
    (a3 : Memref sig .tc .vmem S8192x128 .f32) (h3 : a3.IsWhole) (a5 : Memref sig .tc .vmem S8x128 .f32) (h5 : a5.IsWhole)
    (inbW : ∀ a : Fin 2, (![0, 0] : Fin 2 → ℕ) a + S8192x128.size a ≤ S8192x128.size a)
    (inbR : ∀ a : Fin 2, (![0, 0] : Fin 2 → ℕ) a + (![1, 128] : Fin 2 → ℕ) a ≤ (![8, 128] : Fin 2 → ℕ) a)
    (x0 x1 : Vec Ideal S8192x128 .f32) (xs0 : Vec Ideal S8x128 .f32) :
    a5.view.read (Elt Ideal) (a5.view.writes (Elt Ideal) (h5.unread xs0)
      [(⟨Rect.unit (s := S8x128) ![0, 0] ![1, 128] inbR,
          k0_pay2 (F := Ideal)
            (View.readAt (Elt Ideal) a3.view (Rect.unit (s := S8192x128) ![0, 0] S8192x128.size inbW).toLoadRect (h3.unread x1))
            (View.readAt (Elt Ideal) a2.view (Rect.unit (s := S8192x128) ![0, 0] S8192x128.size inbW).toLoadRect (h2.unread x0))
            (View.readAt (Elt Ideal) a5.view (Rect.unit (s := S8x128) ![0, 0] ![1, 128] inbR).toLoadRect (h5.unread xs0))⟩
        : View.Piece (Elt Ideal) S8x128 .f32)])
      = step x0 x1 xs0 := by
  funext y
  obtain ⟨r, l, rfl⟩ : ∃ (r : Fin 8) (l : Fin 128), y = ix2 r l := ⟨y 0, y 1, eq_ix2 y⟩
  refine (read_after_row0_store a5.view _ _ _ _ r l).trans ?_
  unfold step
  by_cases h : r.val = 0
  · rw [if_pos h, if_pos (show ((ix2 r l : S8x128.Idx) 0).val = 0 from h)]
    refine (storedRow_apply _ _ _ 0 l).trans ?_
    rw [load_whole a3 h3 x1, load_whole a2 h2 x0, load_row0 a5 h5 xs0 inbR r h l]
  · rw [if_neg h, if_neg (show ¬((ix2 r l : S8x128.Idx) 0).val = 0 from h), View.writes_nil]
    exact congrFun (h5.read_unread xs0) _

/-- A middle point of a core: the accumulator, holding `xs0`, is updated. -/
theorem soutB_eq (c : Dev nD) (i : grid0.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S8x128 .f32) (h5 : a5.IsWhole) (hc0 : ¬cond0_0 i) (hc1 : ¬cond0_1 i)
    (x0 x1 : Vec Ideal S8192x128 .f32) (xs0 : Vec Ideal S8x128 .f32) :
    sout0_B_0 (F := Ideal) c i a2 h2 a3 h3 a4 h4 a5 h5 hc0 hc1 x0 x1 xs0 = step x0 x1 xs0 := by
  unfold sout0_B_0 kernelRun0_B
  dsimp only
  exact rowUpdate_eq a2 h2 a3 h3 a5 h5 _ _ x0 x1 xs0

/-- A core's last point: the accumulator is updated in the same way … -/
theorem soutC_eq (c : Dev nD) (i : grid0.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S8x128 .f32) (h5 : a5.IsWhole) (hc0 : ¬cond0_0 i) (hc1 : cond0_1 i)
    (x0 x1 : Vec Ideal S8192x128 .f32) (xs0 : Vec Ideal S8x128 .f32) :
    sout0_C_0 (F := Ideal) c i a2 h2 a3 h3 a4 h4 a5 h5 hc0 hc1 x0 x1 xs0 = step x0 x1 xs0 := by
  unfold sout0_C_0 kernelRun0_C
  dsimp only
  exact rowUpdate_eq a2 h2 a3 h3 a5 h5 _ _ x0 x1 xs0

/-- … and the output block receives the whole updated accumulator. -/
theorem outC_eq (c : Dev nD) (i : grid0.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S8x128 .f32) (h5 : a5.IsWhole) (hc0 : ¬cond0_0 i) (hc1 : cond0_1 i)
    (x0 x1 : Vec Ideal S8192x128 .f32) (xs0 : Vec Ideal S8x128 .f32) :
    out0_C_2 (F := Ideal) c i a2 h2 a3 h3 a4 h4 a5 h5 hc0 hc1 x0 x1 xs0 = step x0 x1 xs0 := by
  unfold out0_C_2 kernelRun0_C
  dsimp only
  rw [View.read_writes_junk_eq_canon, View.canon_unit_zero hz]
  simp only [View.readAt_eq_ld, View.ld_unit_zero (S := S8x128) hz]
  exact rowUpdate_eq a2 h2 a3 h3 a5 h5 _ _ x0 x1 xs0

/-- A core's first point: the accumulator is set to the zero block and then updated. -/
theorem soutA_eq (c : Dev nD) (i : grid0.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S8x128 .f32) (h5 : a5.IsWhole) (hc0 : cond0_0 i) (hc1 : ¬cond0_1 i)
    (x0 x1 : Vec Ideal S8192x128 .f32) :
    sout0_A_0 (F := Ideal) c i a2 h2 a3 h3 a4 h4 a5 h5 hc0 hc1 x0 x1 = step x0 x1 zeroBlock := by
  funext y
  obtain ⟨r, l, rfl⟩ : ∃ (r : Fin 8) (l : Fin 128), y = ix2 r l := ⟨y 0, y 1, eq_ix2 y⟩
  unfold sout0_A_0 kernelRun0_A
  dsimp only
  sl_unfold_words
  refine (read_after_row0_store VS0_0 _ _ _ _ r l).trans ?_
  unfold step
  by_cases h : r.val = 0
  · rw [if_pos h, if_pos (show ((ix2 r l : S8x128.Idx) 0).val = 0 from h)]
    refine (storedRow_apply _ _ _ 0 l).trans ?_
    rw [load_whole a3 h3 x1, load_whole a2 h2 x0, View.readCov_eq_canon', View.canon_unit_zero hz, resetBlock_eq]
    rfl
  · rw [if_neg h, if_neg (show ¬((ix2 r l : S8x128.Idx) 0).val = 0 from h), View.read_writes_junk_eq_canon,
      View.canon_unit_zero hz, resetBlock_eq]

end Cert.AccumulatorStep

end
-- ==== Proof.RunningCount.lean ====
/-
  The accumulator point by point.

  The grid's 8 points are visited in order; point n belongs to core n / 4 and is that core's step n % 4. The
  accumulator after point n is: at a core's first point (n % 4 = 0) the zero block updated by that point's blocks;
  at every other point the accumulator after point n - 1 updated by point n's blocks. By induction on the point this
  is what the body's stores leave in the scratch buffer, and at a core's last point (n % 4 = 3) it is also what the
  body leaves in the output block.
-/
import proofs.«142115_j44487271252810_2_alg».proof.Proof.AccumulatorStep

noncomputable section

namespace Cert.RunningCount

open Idealize.ShloMosaic Idealize.ShloMosaic.TcCoe Idealize.ShloMosaic.ValueIdx Idealize.SL.Sem
open Cert.KernelIdeal Cert.KernelIdeal.Gen Cert.AccumulatorStep

variable (m : (ℓ : Loc nD τ sig) → Buf (Elt Ideal) ℓ)

/-- The accumulator after point `n`. -/
def accAfter (c : Dev nD) : (n : ℕ) → n < cfg0.N → Vec Ideal S8x128 .f32
  | 0, h => step (iblk m c 0 ⟨0, h⟩) (iblk m c 1 ⟨0, h⟩) zeroBlock
  | n + 1, h =>
    if (n + 1) % 4 = 0 then step (iblk m c 0 ⟨n + 1, h⟩) (iblk m c 1 ⟨n + 1, h⟩) zeroBlock
    else step (iblk m c 0 ⟨n + 1, h⟩) (iblk m c 1 ⟨n + 1, h⟩) (accAfter c n (Nat.lt_of_succ_lt h))

/-- What the scratch buffer holds after point `n` is the accumulator after point `n`. -/
theorem scratch_eq (c : Dev nD) : ∀ (n : ℕ) (h : n < cfg0.N), (outsAt0 m c n h).2 = accAfter m c n h
  | 0, h => by
    rw [outsAt0_A m c ⟨0, h⟩ (Nat.zero_mod _) (by dsimp only; omega)]
    dsimp only
    rw [soutA_eq]
    rfl
  | n + 1, h => by
    by_cases h0 : (n + 1) % 4 = 0
    · have h1 : ¬(n + 1) % 4 = 3 := by omega
      rw [outsAt0_A m c ⟨n + 1, h⟩ h0 h1]
      dsimp only
      rw [soutA_eq]
      simp only [accAfter, if_pos h0]
    · by_cases h1 : (n + 1) % 4 = 3
      · rw [outsAt0_C m c ⟨n + 1, h⟩ h0 h1]
        dsimp only
        rw [soutC_eq]
        show step _ _ (outsAt0 m c n _).2 = _
        rw [scratch_eq c n]
        simp only [accAfter, if_neg h0]
      · rw [outsAt0_B m c ⟨n + 1, h⟩ h0 h1]
        dsimp only
        rw [soutB_eq]
        show step _ _ (outsAt0 m c n _).2 = _
        rw [scratch_eq c n]
        simp only [accAfter, if_neg h0]

/-- At a core's last point the output block receives the accumulator after that point. -/
theorem out_at_last (c : Dev nD) (t : Fin cfg0.N) (h3 : t.val % 4 = 3) :
    (outsAt0 m c t.val t.isLt).1 = accAfter m c t.val t.isLt := by
  obtain ⟨n, hn⟩ := t
  cases n with
  | zero => exact absurd h3 (by dsimp only; omega)
  | succ n =>
    have h0 : ¬(n + 1) % 4 = 0 := by dsimp only at h3; omega
    rw [outsAt0_C m c ⟨n + 1, hn⟩ h0 h3]
    dsimp only
    rw [outC_eq]
    show step _ _ (outsAt0 m c n _).2 = _
    rw [scratch_eq m c n]
    simp only [accAfter, if_neg h0]

end Cert.RunningCount

end
-- ==== Proof.OutputArray.lean ====
/-
  The output array after the region.

  The output is 16 rows by 128 lanes, cut into two blocks of 8 rows; core c owns block c and writes it back once,
  after its last point (points 3 and 7), with the whole accumulator as it stands then. The two blocks tile the
  array, so after the region rows 0 to 7 hold the accumulator after point 3 and rows 8 to 15 the accumulator after
  point 7.
-/
import proofs.«142115_j44487271252810_2_alg».proof.Proof.RunningCount
import Idealize.ShloMosaic.Lib.Pipeline.Value

noncomputable section

namespace Cert.OutputArray

open Idealize.ShloMosaic Idealize.ShloMosaic.TcCoe Idealize.ShloMosaic.ValueIdx Idealize.SL.Sem
open Idealize.ShloMosaic.Pipeline (Dat)
open Cert.KernelIdeal Cert.KernelIdeal.Gen Cert.AccumulatorStep Cert.RunningCount

variable (m : (ℓ : Loc nD τ sig) → Buf (Elt Ideal) ℓ)

theorem lt3 : 3 < cfg0.N := by rw [show cfg0.N = 8 from N_0]; decide
theorem lt7 : 7 < cfg0.N := by rw [show cfg0.N = 8 from N_0]; decide

/-- The array: rows 0 to 7 the accumulator after point 3, rows 8 to 15 the accumulator after point 7. -/
def outArray (c : Dev nD) : S16x128.Idx → Elt Ideal .f32 := fun j =>
  if (j 0).val < 8 then accAfter m c 3 lt3 (ix2 ⟨(j 0).val % 8, Nat.mod_lt _ (by decide)⟩ (j 1))
  else accAfter m c 7 lt7 (ix2 ⟨(j 0).val % 8, Nat.mod_lt _ (by decide)⟩ (j 1))

/-- Read in the first block: row k, lane l. -/
theorem outArray_low (c : Dev nD) (j : S16x128.Idx) (k : Fin 8) (l : Fin 128) (h0 : (j 0).val = k.val)
    (h1 : (j 1).val = l.val) : outArray m c j = accAfter m c 3 lt3 (ix2 k l) := by
  have hk := k.isLt
  unfold outArray
  rw [if_pos (by omega)]
  refine congrArg (accAfter m c 3 lt3) (funext fun d => ?_)
  match d with
  | ⟨0, _⟩ => exact Fin.ext (by show (j 0).val % 8 = k.val; omega)
  | ⟨1, _⟩ => exact Fin.ext h1

/-- Read in the second block: row 8 + k, lane l. -/
theorem outArray_high (c : Dev nD) (j : S16x128.Idx) (k : Fin 8) (l : Fin 128) (h0 : (j 0).val = 8 + k.val)
    (h1 : (j 1).val = l.val) : outArray m c j = accAfter m c 7 lt7 (ix2 k l) := by
  have hk := k.isLt
  unfold outArray
  rw [if_neg (by omega)]
  refine congrArg (accAfter m c 7 lt7) (funext fun d => ?_)
  match d with
  | ⟨0, _⟩ => exact Fin.ext (by show (j 0).val % 8 = k.val; omega)
  | ⟨1, _⟩ => exact Fin.ext h1

/-- Where the two written blocks sit: block 0 at point 3, block 1 at point 7, all lanes. -/
theorem index_3 : win0_2.index t0_3 0 = 0 ∧ win0_2.index t0_3 1 = 0 := by decide +kernel
theorem index_7 : win0_2.index t0_7 0 = 1 ∧ win0_2.index t0_7 1 = 0 := by decide +kernel

/-- What a write-back writes is the block of `outArray` it is written to. -/
theorem flushed_eq (c : Dev nD) (t : Fin cfg0.N) (hf : (cfg0.win 2).flush t = true) :
    (dats m 0 c).flushed 2 t = ((cfg0.win 2).blk t).view.read (Elt Ideal) (outArray m c) := by
  have hN : cfg0.N = 8 := N_0
  have h3 : t.val % 4 = 3 := (flush0_2 t).mp hf
  have hlt := t.isLt
  show (cfg0.win 2).cut (grid0.coords t) ((dats m 0 c).after 2 t) = _
  rw [after0_2, out_at_last m c t h3]
  have ht : t.val = 3 ∨ t.val = 7 := by omega
  rcases ht with ht | ht
  · obtain rfl : t = t0_3 := Fin.ext ht
    funext y
    rw [View.read_apply]
    refine Eq.trans ?_ (outArray_low m c _ (((cfg0.win 2).xinj (grid0.coords t0_3) y) 0)
      (((cfg0.win 2).xinj (grid0.coords t0_3) y) 1) ?_ ?_).symm
    · exact congrArg (accAfter m c 3 lt3) (eq_ix2 _)
    · show win0_2.index t0_3 0 * 8 + 1 * (y 0).val = (y 0).val
      rw [index_3.1]; omega
    · show win0_2.index t0_3 1 * 128 + 1 * (y 1).val = (y 1).val
      rw [index_3.2]; omega
  · obtain rfl : t = t0_7 := Fin.ext ht
    funext y
    rw [View.read_apply]
    refine Eq.trans ?_ (outArray_high m c _ (((cfg0.win 2).xinj (grid0.coords t0_7) y) 0)
      (((cfg0.win 2).xinj (grid0.coords t0_7) y) 1) ?_ ?_).symm
    · exact congrArg (accAfter m c 7 lt7) (eq_ix2 _)
    · show win0_2.index t0_7 0 * 8 + 1 * (y 0).val = 8 + (y 0).val
      rw [index_7.1]; omega
    · show win0_2.index t0_7 1 * 128 + 1 * (y 1).val = (y 1).val
      rw [index_7.2]; omega

/-- The two written blocks tile the array, so it ends holding `outArray`. -/
theorem final (c : Dev nD) : (dats m 0 c).arrAt 2 cfg0.N = outArray m c :=
  (dats m 0 c).arrAt_eq_of_cover 2 (outArray m c) (flushed_eq m c) fun i => by
    have h0 : (i 0 : Nat) < 16 := (i 0).isLt
    have h1 : (i 1 : Nat) < 128 := (i 1).isLt
    by_cases h : (i 0 : Nat) < 8
    · refine ⟨t0_3, (flush0_2 t0_3).mpr rfl, ?_⟩
      show i ∈ ((View.whole main_v2).slice (win0_2.rect t0_3)).set
      rw [View.set_slice_whole, Rect.mem_set_unit]
      intro a
      match a with
      | ⟨0, _⟩ =>
        show win0_2.index t0_3 0 * win0_2.size 0 ≤ (i 0 : Nat) ∧ (i 0 : Nat) < win0_2.index t0_3 0 * win0_2.size 0 + win0_2.xsize (grid0.coords t0_3) 0
        rw [show win0_2.index t0_3 0 * win0_2.size 0 = 0 from by decide +kernel, show win0_2.xsize (grid0.coords t0_3) 0 = 8 from by decide +kernel]; omega
      | ⟨1, _⟩ =>
        show win0_2.index t0_3 1 * win0_2.size 1 ≤ (i 1 : Nat) ∧ (i 1 : Nat) < win0_2.index t0_3 1 * win0_2.size 1 + win0_2.xsize (grid0.coords t0_3) 1
        rw [show win0_2.index t0_3 1 * win0_2.size 1 = 0 from by decide +kernel, show win0_2.xsize (grid0.coords t0_3) 1 = 128 from by decide +kernel]; omega
    · refine ⟨t0_7, (flush0_2 t0_7).mpr rfl, ?_⟩
      show i ∈ ((View.whole main_v2).slice (win0_2.rect t0_7)).set
      rw [View.set_slice_whole, Rect.mem_set_unit]
      intro a
      match a with
      | ⟨0, _⟩ =>
        show win0_2.index t0_7 0 * win0_2.size 0 ≤ (i 0 : Nat) ∧ (i 0 : Nat) < win0_2.index t0_7 0 * win0_2.size 0 + win0_2.xsize (grid0.coords t0_7) 0
        rw [show win0_2.index t0_7 0 * win0_2.size 0 = 8 from by decide +kernel, show win0_2.xsize (grid0.coords t0_7) 0 = 8 from by decide +kernel]; omega
      | ⟨1, _⟩ =>
        show win0_2.index t0_7 1 * win0_2.size 1 ≤ (i 1 : Nat) ∧ (i 1 : Nat) < win0_2.index t0_7 1 * win0_2.size 1 + win0_2.xsize (grid0.coords t0_7) 1
        rw [show win0_2.index t0_7 1 * win0_2.size 1 = 0 from by decide +kernel, show win0_2.xsize (grid0.coords t0_7) 1 = 128 from by decide +kernel]; omega

end Cert.OutputArray

end
-- ==== Proof.BlockOfArray.lean ====
/-
  A window's block as entries of the flat argument.

  Before the region the host lays each compared array out as 65536 rows of 128 lanes: entry (R, l) of the laid-out
  array is entry R · 128 + l of the flat one. Both input windows cut that layout into blocks of 8192 rows, and at
  grid point t (core t / 4, step t % 4) both read block number t. So entry (s, l) of the block a window holds at
  point t is entry (t · 8192 + s) · 128 + l of its flat argument.
-/
import proofs.«142115_j44487271252810_2_alg».proof.Proof.Gen.KernelIdeal.Frame
import Idealize.ShloMosaic.Lib.Pipeline.Value
import Idealize.ShloMosaic.Lib.ValueIdx
import Idealize.ShloMosaic.Lib.StableHlo.Run

noncomputable section

namespace Cert.BlockOfArray

open Idealize.ShloMosaic Idealize.ShloMosaic.TcCoe Idealize.ShloMosaic.ValueIdx Idealize.SL.Sem Idealize.ShloMosaic.StableHlo
open Cert.KernelIdeal Cert.KernelIdeal.Gen

variable {F : FTy → Type} [FloatOps F]
variable (m : (ℓ : Loc nD τ sig) → Buf (Elt F) ℓ)

/-- The layout in rows of 128 read at an index `j` whose row is `R` and lane `l`: the flat array at R · 128 + l. -/
theorem rows_apply {α : Type} (x : S8388608.Idx → α) (j : S65536x128.Idx) (R : ℕ) (l : Fin 128) (n : Fin 8388608)
    (h0 : (j 0).val = R) (h1 : (j 1).val = l.val) (hn : n.val = R * 128 + l.val) :
    shapeCast S65536x128 x shapeCasts_S8388608_S65536x128 j = x (ix1 n) :=
  shapeCast_apply x _ j (ix1 n) (by
    rw [Shape.rowMajor_val_one, Shape.rowMajor_val_two]
    show n.val = (j 0).val * 128 + (j 1).val
    rw [h0, h1, hn])

/-- Window 0's array, as the region finds it, is the second argument laid out in rows. -/
theorem arr0_eq (c : Dev nD) :
    (V m c main_v0 : S65536x128.Idx → Elt F .f32)
      = shapeCast S65536x128 (m ((c : Thread nD τ).loc main_arg1)) shapeCasts_S8388608_S65536x128 := by
  show StableHlo.after hostOps0 (fun b => m (c, b)) (Proc.devRef .tc main_v0) = _
  after_results
  rfl

/-- Window 1's array is the third argument laid out in rows. -/
theorem arr1_eq (c : Dev nD) :
    (V m c main_v1 : S65536x128.Idx → Elt F .f32)
      = shapeCast S65536x128 (m ((c : Thread nD τ).loc main_arg2)) shapeCasts_S8388608_S65536x128 := by
  show StableHlo.after hostOps0 (fun b => m (c, b)) (Proc.devRef .tc main_v1) = _
  after_results
  rfl

/-- Both input windows read block number t at point t, all 128 lanes. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)

/-- Entry (s, l) of window 0's block at point t is the second argument at (t · 8192 + s) · 128 + l. -/
theorem block0_apply (c : Dev nD) (t : Fin cfg0.N) (s : Fin 8192) (l : Fin 128) (n : Fin 8388608)
    (hn : n.val = (t.val * 8192 + s.val) * 128 + l.val) :
    (iblk m c 0 t : Vec F S8192x128 .f32) (ix2 s l) = m ((c : Thread nD τ).loc main_arg1) (ix1 n) := by
  have hN : cfg0.N = 8 := N_0
  have ht := t.isLt
  unfold iblk
  rw [View.read_apply]
  show V m c main_v0 _ = _
  refine (congrFun (arr0_eq m c) _).trans ?_
  refine rows_apply _ _ (t.val * 8192 + s.val) l n ?_ ?_ hn
  · show win0_0.index t 0 * 8192 + 1 * s.val = t.val * 8192 + s.val
    rw [(index0 t).1]; omega
  · show win0_0.index t 1 * 128 + 1 * l.val = l.val
    rw [(index0 t).2]; omega

/-- Entry (s, l) of window 1's block at point t is the third argument at (t · 8192 + s) · 128 + l. -/
theorem block1_apply (c : Dev nD) (t : Fin cfg0.N) (s : Fin 8192) (l : Fin 128) (n : Fin 8388608)
    (hn : n.val = (t.val * 8192 + s.val) * 128 + l.val) :
    (iblk m c 1 t : Vec F S8192x128 .f32) (ix2 s l) = m ((c : Thread nD τ).loc main_arg2) (ix1 n) := by
  have hN : cfg0.N = 8 := N_0
  have ht := t.isLt
  unfold iblk
  rw [View.read_apply]
  show V m c main_v1 _ = _
  refine (congrFun (arr1_eq m c) _).trans ?_
  refine rows_apply _ _ (t.val * 8192 + s.val) l n ?_ ?_ hn
  · show win0_1.index t 0 * 8192 + 1 * s.val = t.val * 8192 + s.val
    rw [(index1 t).1]; omega
  · show win0_1.index t 1 * 128 + 1 * l.val = l.val
    rw [(index1 t).2]; omega

end Cert.BlockOfArray

end
-- ==== Proof.SumByBlocks.lean ====
/-
  A sum over the 8388608 positions of a flat array, taken block by block.

  Read the flat array as 65536 rows of 128 lanes (position = row · 128 + lane), cut the rows into 8 blocks of
  8192 rows, and give the blocks to 2 cores, 4 consecutive blocks each: block number 4·c + i for core c and step i.
  Position ((4·c + i) · 8192 + s) · 128 + l is then row s of that block, lane l. Every position arises from exactly
  one (c, l, i, s), so in a commutative monoid the sum over all positions is the sum over cores, lanes, steps and
  rows, in any nesting. Only associativity and commutativity of + are used; the summands may be extended reals.
-/
import Idealize.ShloMosaic.Lib.ValueIdx

namespace Cert.SumByBlocks

/-- The flat position of core `c`, step `i`, row `s` of the block, lane `l`. -/
def pos (c : Fin 2) (i : Fin 4) (s : Fin 8192) (l : Fin 128) : Fin 8388608 :=
  ⟨((c.val * 4 + i.val) * 8192 + s.val) * 128 + l.val, by
    have := c.isLt; have := i.isLt; have := s.isLt; have := l.isLt; omega⟩

@[simp] theorem pos_val (c : Fin 2) (i : Fin 4) (s : Fin 8192) (l : Fin 128) :
    (pos c i s l).val = ((c.val * 4 + i.val) * 8192 + s.val) * 128 + l.val := rfl

/-- Positions and quadruples (core, lane, step, row) correspond one to one: the quadruple of a position is read off
    by division and remainder. -/
def posEquiv : Fin 2 × Fin 128 × Fin 4 × Fin 8192 ≃ Fin 8388608 where
  toFun q := pos q.1 q.2.2.1 q.2.2.2 q.2.1
  invFun n := (⟨n.val / 4194304, by have := n.isLt; omega⟩, ⟨n.val % 128, by omega⟩,
    ⟨(n.val / 1048576) % 4, by omega⟩, ⟨(n.val / 128) % 8192, by omega⟩)
  left_inv := by
    rintro ⟨c, l, i, s⟩
    have := c.isLt; have := i.isLt; have := s.isLt; have := l.isLt
    refine Prod.ext (Fin.ext ?_) (Prod.ext (Fin.ext ?_) (Prod.ext (Fin.ext ?_) (Fin.ext ?_))) <;>
      simp only [pos_val] <;> omega
  right_inv := by
    intro n
    have := n.isLt
    apply Fin.ext
    simp only [pos_val]
    omega

/-- The sum over all positions is the sum over cores, lanes, steps and rows. -/
theorem sum_by_blocks {M : Type*} [AddCommMonoid M] (f : Fin 8388608 → M) :
    ∑ n, f n = ∑ c : Fin 2, ∑ l : Fin 128, ∑ i : Fin 4, ∑ s : Fin 8192, f (pos c i s l) := by
  rw [← Equiv.sum_comp posEquiv f, Fintype.sum_prod_type]
  refine Finset.sum_congr rfl fun c _ => ?_
  rw [Fintype.sum_prod_type]
  refine Finset.sum_congr rfl fun l _ => ?_
  rw [Fintype.sum_prod_type]
  rfl

end Cert.SumByBlocks
-- ==== Proof.Total.lean ====
/-
  The total of the output array is the number of positions at which the third array exceeds the second.

  Row 0 of a core's accumulator after its last point is, lane by lane, the zero word plus the lane counts of the
  core's four points, added in order; its other rows are the zero word, which is 0. A point's lane count is the sum,
  down its block's 8192 rows, of the indicators at the flat positions those rows occupy. So summing the 16 by 128
  output array adds, for each core and lane, the indicators of the four blocks' rows: every flat position exactly
  once. Only associativity and commutativity of addition and 0 + x = x are used.
-/
import proofs.«142115_j44487271252810_2_alg».proof.Proof.OutputArray
import proofs.«142115_j44487271252810_2_alg».proof.Proof.BlockOfArray
import proofs.«142115_j44487271252810_2_alg».proof.Proof.SumByBlocks

noncomputable section

namespace Cert.Total

open Idealize.ShloMosaic Idealize.ShloMosaic.TcCoe Idealize.ShloMosaic.ValueIdx Idealize.SL.Sem
open Cert.KernelIdeal Cert.KernelIdeal.Gen Cert.LanePartial Cert.AccumulatorStep Cert.RunningCount Cert.OutputArray
open Cert.SumByBlocks Cert.BlockOfArray

variable (m : (ℓ : Loc nD τ sig) → Buf (Elt Ideal) ℓ)

/-- Point `n` as a grid point. -/
abbrev pt (n : ℕ) (hn : n < 8) : Fin cfg0.N := ⟨n, by rw [show cfg0.N = 8 from N_0]; exact hn⟩

/-- The lane count of point `n`. -/
abbrev cnt (c : Dev nD) (n : ℕ) (hn : n < 8) (l : Fin 128) : EReal :=
  laneCount (iblk m c 0 (pt n hn)) (iblk m c 1 (pt n hn)) l

/-- The indicators of the two flat arguments. -/
abbrev indOf (c : Dev nD) (n : Fin 8388608) : EReal :=
  Cert.Indicator.ind (m ((c : Thread nD τ).loc main_arg1)) (m ((c : Thread nD τ).loc main_arg2)) n

/-- A point's lane count: the indicators at the flat positions of its block's rows, lane l. -/
theorem cnt_eq (c : Dev nD) (core : Fin 2) (i : Fin 4) (n : ℕ) (hn : n < 8) (hni : n = core.val * 4 + i.val) (l : Fin 128) :
    cnt m c n hn l = ∑ s : Fin 8192, indOf m c (pos core i s l) := by
  unfold cnt laneCount
  refine Finset.sum_congr rfl fun s _ => ?_
  have hp : (pos core i s l).val = ((pt n hn).val * 8192 + s.val) * 128 + l.val := by
    rw [pos_val]
    show ((core.val * 4 + i.val) * 8192 + s.val) * 128 + l.val = (n * 8192 + s.val) * 128 + l.val
    omega
  rw [block0_apply m c (pt n hn) s l (pos core i s l) hp, block1_apply m c (pt n hn) s l (pos core i s l) hp]
  rfl

/-- The accumulator after point 3: row 0 the chain of the first core's four lane counts, other rows the zero word. -/
theorem acc3_apply (c : Dev nD) (k : Fin 8) (l : Fin 128) :
    accAfter m c 3 lt3 (ix2 k l)
      = if k.val = 0 then
          (((Ideal.ofBits .f32 0x00000000#32 + cnt m c 0 (by decide) l) + cnt m c 1 (by decide) l) + cnt m c 2 (by decide) l)
            + cnt m c 3 (by decide) l
        else Ideal.ofBits .f32 0x00000000#32 := by
  show step _ _ (step _ _ (step _ _ (step _ _ zeroBlock))) (ix2 k l) = _
  by_cases hk : k.val = 0
  · simp only [step, zeroBlock, if_pos (show ((ix2 k l : S8x128.Idx) 0).val = 0 from hk)]
  · simp only [step, zeroBlock, if_neg (show ¬((ix2 k l : S8x128.Idx) 0).val = 0 from hk)]

/-- The accumulator after point 7: the same of the second core's four points (it was reset at point 4). -/
theorem acc7_apply (c : Dev nD) (k : Fin 8) (l : Fin 128) :
    accAfter m c 7 lt7 (ix2 k l)
      = if k.val = 0 then
          (((Ideal.ofBits .f32 0x00000000#32 + cnt m c 4 (by decide) l) + cnt m c 5 (by decide) l) + cnt m c 6 (by decide) l)
            + cnt m c 7 (by decide) l
        else Ideal.ofBits .f32 0x00000000#32 := by
  show step _ _ (step _ _ (step _ _ (step _ _ zeroBlock))) (ix2 k l) = _
  by_cases hk : k.val = 0
  · simp only [step, zeroBlock, if_pos (show ((ix2 k l : S8x128.Idx) 0).val = 0 from hk)]
  · simp only [step, zeroBlock, if_neg (show ¬((ix2 k l : S8x128.Idx) 0).val = 0 from hk)]

/-- A lane's chain of a core's four lane counts, started from the zero word, is the sum of the core's indicators in
    that lane: over its four blocks and their rows. -/
theorem chain_eq (c : Dev nD) (core : Fin 2) (n0 n1 n2 n3 : ℕ) (h0 : n0 < 8) (h1 : n1 < 8) (h2 : n2 < 8) (h3 : n3 < 8)
    (e0 : n0 = core.val * 4 + (0 : Fin 4).val) (e1 : n1 = core.val * 4 + (1 : Fin 4).val)
    (e2 : n2 = core.val * 4 + (2 : Fin 4).val) (e3 : n3 = core.val * 4 + (3 : Fin 4).val) (l : Fin 128) :
    (((Ideal.ofBits .f32 0x00000000#32 + cnt m c n0 h0 l) + cnt m c n1 h1 l) + cnt m c n2 h2 l) + cnt m c n3 h3 l
      = ∑ i : Fin 4, ∑ s : Fin 8192, indOf m c (pos core i s l) := by
  rw [Fin.sum_univ_four, Ideal.ofBits_zero_f32, zero_add, cnt_eq m c core 0 n0 h0 e0 l, cnt_eq m c core 1 n1 h1 e1 l,
    cnt_eq m c core 2 n2 h2 e2 l, cnt_eq m c core 3 n3 h3 e3 l]

/-- Row 0 of the output array, summed over the lanes: the first core's indicators. -/
theorem row0_sum (c : Dev nD) :
    ∑ l : Fin 128, outArray m c (ix2 (0 : Fin 16) l) = ∑ l : Fin 128, ∑ i : Fin 4, ∑ s : Fin 8192, indOf m c (pos 0 i s l) := by
  refine Finset.sum_congr rfl fun l _ => ?_
  rw [outArray_low m c (ix2 (0 : Fin 16) l) 0 l rfl rfl, acc3_apply, if_pos (show ((0 : Fin 8)).val = 0 from rfl)]
  exact chain_eq m c 0 0 1 2 3 (by decide) (by decide) (by decide) (by decide) rfl rfl rfl rfl l

/-- Row 8, summed over the lanes: the second core's indicators. -/
theorem row8_sum (c : Dev nD) :
    ∑ l : Fin 128, outArray m c (ix2 (8 : Fin 16) l) = ∑ l : Fin 128, ∑ i : Fin 4, ∑ s : Fin 8192, indOf m c (pos 1 i s l) := by
  refine Finset.sum_congr rfl fun l _ => ?_
  rw [outArray_high m c (ix2 (8 : Fin 16) l) 0 l rfl rfl, acc7_apply, if_pos (show ((0 : Fin 8)).val = 0 from rfl)]
  exact chain_eq m c 1 4 5 6 7 (by decide) (by decide) (by decide) (by decide) rfl rfl rfl rfl l

/-- Every other row holds the zero word, which is 0. -/
theorem other_row_sum (c : Dev nD) (r : Fin 16) (hr0 : r ≠ 0) (hr8 : r ≠ 8) :
    ∑ l : Fin 128, outArray m c (ix2 r l) = 0 := by
  have h0 : r.val ≠ 0 := fun h => hr0 (Fin.ext h)
  have h8 : r.val ≠ 8 := fun h => hr8 (Fin.ext h)
  have hlt := r.isLt
  refine Finset.sum_eq_zero fun l _ => ?_
  by_cases h : r.val < 8
  · rw [outArray_low m c (ix2 r l) ⟨r.val, h⟩ l rfl rfl, acc3_apply, if_neg (show ¬r.val = 0 from h0), Ideal.ofBits_zero_f32]
  · have hk : r.val - 8 < 8 := by omega
    rw [outArray_high m c (ix2 r l) ⟨r.val - 8, hk⟩ l (show r.val = 8 + (r.val - 8) by omega) rfl, acc7_apply,
      if_neg (show ¬r.val - 8 = 0 by omega), Ideal.ofBits_zero_f32]

/-- The rows of the output array, summed: rows 0 and 8. -/
theorem rows_sum (c : Dev nD) :
    ∑ r : Fin 16, ∑ l : Fin 128, outArray m c (ix2 r l)
      = (∑ l : Fin 128, outArray m c (ix2 (0 : Fin 16) l)) + ∑ l : Fin 128, outArray m c (ix2 (8 : Fin 16) l) :=
  Finset.sum_eq_add (0 : Fin 16) (8 : Fin 16) (by decide) (fun r _ hr => other_row_sum m c r hr.1 hr.2)
    (fun h => absurd (Finset.mem_univ _) h) (fun h => absurd (Finset.mem_univ _) h)

/-- The total of the output array is the total of the indicators. -/
theorem total_eq (c : Dev nD) :
    ∑ j : S16x128.Idx, outArray m c j = ∑ n : Fin 8388608, indOf m c n := by
  rw [sum_idx2, rows_sum, row0_sum, row8_sum, sum_by_blocks (indOf m c), Fin.sum_univ_two]

end Cert.Total

end
-- ==== Proof.KernelValue.lean ====
/-
  The kernel's result as a function of its argument arrays.

  After the region the host sums the 16 by 128 output array starting from zero, divides the sum by 8388608 and
  negates the quotient. The array's total is the total of the indicators over all positions, so the result is the
  common ending applied to 0 + Σₙ ind n: the same term the reference ends at.
-/
import proofs.«142115_j44487271252810_2_alg».proof.Proof.Total
import Idealize.ShloMosaic.Lib.StableHlo.Run
import Idealize.ShloMosaic.PureOps.Ideal.Laws

noncomputable section

namespace Cert.KernelValue

open Idealize.ShloMosaic Idealize.ShloMosaic.TcCoe Idealize.ShloMosaic.ValueIdx Idealize.SL.Sem Idealize.ShloMosaic.StableHlo
open Cert.KernelIdeal Cert.KernelIdeal.Gen Cert.OutputArray Cert.Total

variable (m : (ℓ : Loc nD τ sig) → Buf (Elt Ideal) ℓ) (ρ : Dev nD → PrngReg)

/-- The result: the common ending of 0 plus the total of the indicators. -/
def result (c : Dev nD) : Buf (Elt Ideal) ((c : Thread nD τ).loc main_v5) :=
  Cert.Indicator.finish (fun _ => Ideal.ofBits .f32 0x00000000#32 + ∑ n : Fin 8388608, indOf m c n)

/-- The host's sum of the output array, started from the zero word, is 0 plus the total of the indicators. -/
theorem hostSum_eq (c : Dev nD) :
    Host.reduceAdd (F := Ideal) (outArray m c) (constant (F := Ideal) S_ .f32 0x00000000#32) reducesTo_S16x128_S_d0_1 h_S_
      = fun _ => Ideal.ofBits .f32 0x00000000#32 + ∑ n : Fin 8388608, indOf m c n := by
  funext i
  simp only [Host.reduceAdd, Ideal.hostReduceAdd_def]
  rw [Ideal.hostReduceAdd_total reducesTo_S16x128_S_d0_1 (fun b => b.elim0), total_eq]
  rfl

/-- What the operations after the region leave in the result buffer. -/
theorem tail_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  rw [(Pipeline.withArrays_arr spec0 launch0.win.arr_inj c _ _ 2).trans (final m c)]
  exact congrArg Cert.Indicator.finish (hostSum_eq m c)

/-- The run, read: the result buffer at `result`, the arguments unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelValue

end
-- ==== Proof.lean ====
/-
  The kernel and its reference agree over the extended reals.

  Both programs take three arrays of 8388608 numbers and ignore the first. The reference puts 1 at every position
  where the third array exceeds the second and 0 elsewhere, sums these indicators from zero, divides by 8388608 and
  negates. The kernel lays the two compared arrays out as 65536 rows of 128 lanes, gives each of 2 cores 4 blocks
  of 8192 rows, and at each of the 8 grid points adds the block's indicators, summed down the rows, to row 0 of an
  8 by 128 accumulator that a core sets to zero at its first point; after its last point a core writes the
  accumulator to its 8 rows of a 16 by 128 output, whose entries the host sums from zero, divides by 8388608 and
  negates.

  Every summand is the word of 1.0 or of 0.0, the two programs compare the same pair of entries with the same
  comparison, and they end with the same division and negation of a scalar. They differ in the order and grouping
  of the additions and in the zero words the kernel adds along the way. Addition of extended reals is associative
  and commutative and 0 + x = x, so the two totals are equal for all inputs: finiteness of the inputs is not used.

  The modules: SumByBlocks (a sum over the flat positions taken block by block), Indicator (the indicator and the
  common ending), MeanOfIndicator (the reference's result), LanePartial (what one point adds to a lane),
  AccumulatorStep (what one point does to the accumulator), RunningCount (the accumulator point by point),
  BlockOfArray (a block's entries as entries of the flat argument), OutputArray (the output array after the
  region), Total (its total is the total of the indicators), KernelValue (the kernel's result).

  The idealization rewrote nothing, so that it preserves the kernel is trivial; the two kernel programs' runs are
  the generated ones, and the reference's run is its generated run with the result dropped.
-/
import proofs.«142115_j44487271252810_2_alg».proof.Defs
import proofs.«142115_j44487271252810_2_alg».proof.Proof.Gen.Kernel
import proofs.«142115_j44487271252810_2_alg».proof.Proof.Gen.Kernel.Skeleton
import proofs.«142115_j44487271252810_2_alg».proof.Proof.Gen.Kernel.Launch
import proofs.«142115_j44487271252810_2_alg».proof.Proof.Gen.Kernel.Points
import proofs.«142115_j44487271252810_2_alg».proof.Proof.Gen.Kernel.Frame
import proofs.«142115_j44487271252810_2_alg».proof.Proof.Gen.KernelIdeal
import proofs.«142115_j44487271252810_2_alg».proof.Proof.Gen.KernelIdeal.Skeleton
import proofs.«142115_j44487271252810_2_alg».proof.Proof.Gen.KernelIdeal.Launch
import proofs.«142115_j44487271252810_2_alg».proof.Proof.Gen.KernelIdeal.Points
import proofs.«142115_j44487271252810_2_alg».proof.Proof.Gen.KernelIdeal.Frame
import proofs.«142115_j44487271252810_2_alg».proof.Proof.Gen.ReferenceIdeal
import proofs.«142115_j44487271252810_2_alg».proof.Proof.Gen.ReferenceIdeal.Run
import proofs.«142115_j44487271252810_2_alg».proof.Proof.Gen.ReferenceIdeal.Read
import proofs.«142115_j44487271252810_2_alg».proof.Proof.Gen.Pre_finite_inputs
import proofs.«142115_j44487271252810_2_alg».proof.Proof.MeanOfIndicator
import proofs.«142115_j44487271252810_2_alg».proof.Proof.KernelValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel :=
  fun m ρ _ => Cert.Kernel.Gen.frame m ρ

/-- So does the idealized kernel. -/
theorem frame_kernelIdeal : Cert.frame_KernelIdeal :=
  fun m ρ _ => Cert.KernelIdeal.Gen.frame m ρ

/-- And the idealized reference: its run, with the result dropped. -/
theorem frame_referenceIdeal : Cert.frame_ReferenceIdeal :=
  fun m ρ _ => (θ_run Cert.ReferenceIdeal.defs _ _).mono (fun _ h c => (h c).2)
    (Cert.ReferenceIdeal.Value.run (F := Ideal) m ρ)

/-- From arguments that agree, both idealized programs end at the common ending of 0 plus the total of the
    indicators. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.MeanOfIndicator.result_eq, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
